-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S16384x4096 .f32) (main_arg1 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S16384x4096 : Shape := ⟨2, ![16384, 4096]⟩
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .f32⟩
  | .local _ .vmem, ⟨3, _⟩ => ⟨S1024x4096, .f32⟩
  | .local _ .vmem, ⟨4, _⟩ => ⟨S512x1024, .f32⟩
  | .local _ .vmem, ⟨5, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x4096.size a
  hwx0_2 : ∀ i : grid0.Coords, EltTy.bits .f32 = 32 ∨ (Rect.block (s := S16384x4096) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S2048x4096 : Shape := ⟨2, ![2048, 4096]⟩
abbrev S4096x2048 : Shape := ⟨2, ![4096, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S2048x4096, .f32⟩
  | .hbm, ⟨3, _⟩ => ⟨S4096x2048, .f32⟩
  | .hbm, ⟨4, _⟩ => ⟨S16384x2048, .f32⟩
  | .hbm, ⟨5, _⟩ => ⟨S2048x4096, .f32⟩
  | .hbm, ⟨6, _⟩ => ⟨S4096x2048, .f32⟩
  | .hbm, ⟨7, _⟩ => ⟨S16384x2048, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  slices_S4096x4096_S2048x4096_0_0 : S4096x4096.Slices ![0, 0] S2048x4096
  transposes_S2048x4096_S4096x2048_1_0 : S2048x4096.Transposes [1, 0] S4096x2048
  slices_S4096x4096_S2048x4096_2048_0 : S4096x4096.Slices ![2048, 0] S2048x4096
  concatenates_S16384x2048_S16384x2048_S16384x4096_d1 : Shape.Concatenates [S16384x2048, S16384x2048] S16384x4096 1
  dot_S16384x4096_S4096x2048_S16384x2048_1_0_0_1_n_n_wf : DotDims.WF S16384x4096 S4096x2048 S16384x2048 [1] [0] [0] [1] [] []

variable [Facts₀]

def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf

class Facts : Prop extends Facts₀ where

variable [Facts]
-- ==== Proof.BlockProduct.lean ====
/-
  What the kernel body computes from one pair of blocks.

  At a grid point the body loads a block of 512 rows of x and a block of 1024 rows of W, each row whole (4096
  columns), changes the float format of both (the identity on extended reals), and multiplies the first by the
  transpose of the second into a zero accumulator: the entry of the stored 512 by 1024 block in row p and column q
  is the sum over k of (row p of the x block at k) times (row q of the W block at k).
-/
import proofs.«167219_g14525579395117_cont_week2b_1131_3_alg».proof.Proof.Gen.KernelIdeal.Skeleton
import Idealize.ShloMosaic.Lib.ValueIdx
import Idealize.ShloMosaic.PureOps.Ideal.Laws

noncomputable section

open Idealize.ShloMosaic Idealize.ShloMosaic.ValueIdx

namespace Cert.KernelIdeal.BlockValue

open Cert.KernelIdeal Cert.KernelIdeal.Gen

/-- The matrix unit's dimension record: the second axis of each operand is contracted, the first kept. -/
abbrev dims : DotDims S512x4096 S1024x4096 S512x1024 := dot_S512x4096_S1024x4096_S512x1024_1_1_0_0_n_n

theorem lhs_row (i : S512x1024.Idx) (q : dims.contr.Idx) : (dims.lhsIdx i q 0).val = (i 0).val := by
  unfold DotDims.lhsIdx
  rw [dif_neg (show ¬(0 : Fin S512x4096.rank) ∈ dims.lhsBatch by decide),
    dif_pos (show (0 : Fin S512x4096.rank) ∈ dims.lhsNonContracting by decide)]
  rfl

theorem lhs_col (i : S512x1024.Idx) (q : dims.contr.Idx) : (dims.lhsIdx i q 1).val = (q ⟨0, by decide⟩).val :=
  dims.lhsIdx_val_of_single rfl i q

theorem rhs_row (i : S512x1024.Idx) (q : dims.contr.Idx) : (dims.rhsIdx i q 0).val = (i 1).val := by
  unfold DotDims.rhsIdx
  rw [dif_neg (show ¬(0 : Fin S1024x4096.rank) ∈ dims.rhsBatch by decide),
    dif_pos (show (0 : Fin S1024x4096.rank) ∈ dims.rhsNonContracting by decide)]
  rfl

theorem rhs_col (i : S512x1024.Idx) (q : dims.contr.Idx) : (dims.rhsIdx i q 1).val = (q ⟨0, by decide⟩).val :=
  dims.rhsIdx_val_of_single rfl i q

/-- The stored block at row p and column q: the inner product of row p of the x block with row q of the W block. -/
theorem payload_apply (x0 : Vec Ideal S512x4096 .f32) (x1 : Vec Ideal S1024x4096 .f32) (p : Fin 512) (q : Fin 1024) :
    k0_pay1 (F := Ideal) x0 x1 (ix2 p q) = ∑ k : Fin 4096, x0 (ix2 p k) * x1 (ix2 q k) := by
  unfold k0_pay1
  simp only [matmul]
  refine (Ideal.matmul_constant_zero_apply dims none _ _ (ix2 p q)).trans ?_
  rw [← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k :=
    funext fun a => Fin.ext (by
      match a with
      | ⟨0, _⟩ => exact lhs_row _ _
      | ⟨1, _⟩ => exact (lhs_col _ _).trans hk)
  have er : dims.rhsIdx (ix2 p q) ((contrEquiv1 dims 4096 rfl rfl).symm k) = ix2 q k :=
    funext fun a => Fin.ext (by
      match a with
      | ⟨0, _⟩ => exact rhs_row _ _
      | ⟨1, _⟩ => exact (rhs_col _ _).trans hk)
  rw [el, er]
  rfl

end Cert.KernelIdeal.BlockValue

end
-- ==== Proof.RowsProduct.lean ====
/-
  The product of a matrix with the transpose of another, over the extended reals.

  For x of 16384 rows and W of 4096 rows, both with 4096 columns, the entry of x · Wᵀ in row r and
  column c is the inner product of row r of x with row c of W: the sum over k of x(r, k) · W(c, k).
  Addition of extended reals is commutative and associative, so the order in which a program adds the 4096
  products does not matter, and no finiteness of the entries is needed.
-/
import Idealize.ShloMosaic.PureOps.Ideal
import Idealize.ShloMosaic.Lib.ValueIdx

noncomputable section

open Idealize.ShloMosaic Idealize.ShloMosaic.ValueIdx

namespace Cert.RowsProduct

/-- The inner product of row r of x with row c of W. -/
def rowDot (x : FVec Ideal ⟨2, ![16384, 4096]⟩ .f32) (W : FVec Ideal ⟨2, ![4096, 4096]⟩ .f32)
    (r : Fin 16384) (c : Fin 4096) : EReal :=
  ∑ k : Fin 4096, x (ix2 r k) * W (ix2 c k)

/-- x · Wᵀ, entry by entry. -/
def product (x : FVec Ideal ⟨2, ![16384, 4096]⟩ .f32) (W : FVec Ideal ⟨2, ![4096, 4096]⟩ .f32) :
    FVec Ideal ⟨2, ![16384, 4096]⟩ .f32 :=
  fun j => rowDot x W ⟨(j 0).val, idx2_lt0 j⟩ ⟨(j 1).val, idx2_lt1 j⟩

/-- The product at the entry with coordinates r, c. -/
theorem product_apply (x : FVec Ideal ⟨2, ![16384, 4096]⟩ .f32) (W : FVec Ideal ⟨2, ![4096, 4096]⟩ .f32)
    (r : Fin 16384) (c : Fin 4096) : product x W (ix2 r c) = rowDot x W r c := rfl

end Cert.RowsProduct

end
-- ==== Proof.KernelProduct.lean ====
/-
  The kernel's result array is x · Wᵀ.

  The grid has 4 by 32 points. At a point the kernel reads the block of 512 whole rows of x numbered by the
  point's second coordinate and the block of 1024 whole rows of W numbered by its first coordinate, and writes the
  512 by 1024 block of the result whose row block is the second coordinate and whose column block is the first.
  So the entry of that block in row p and column q, the inner product of row p of the x block with row q of the W
  block, is the inner product of row (512 · row block + p) of x with row (1024 · column block + q) of W: the entry
  of x · Wᵀ at that place. The 32 by 4 blocks tile the 16384 by 4096 result, so every entry is written.
-/
import proofs.«167219_g14525579395117_cont_week2b_1131_3_alg».proof.Proof.Gen.KernelIdeal.Value
import proofs.«167219_g14525579395117_cont_week2b_1131_3_alg».proof.Proof.BlockProduct
import proofs.«167219_g14525579395117_cont_week2b_1131_3_alg».proof.Proof.RowsProduct
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.KernelIdeal.BlockValue Cert.RowsProduct

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 128 grid points: the x block's row block is the result block's row block, the
    W block's row block is the result block's column block, both input blocks start at column 0, and the result's
    block indices stay below 32 and 4. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 31
    ∧ win0_2.index t (1 : Fin 2) ≤ 3 :=
  (by decide +kernel : ∀ t : Fin grid0.N, _)

/-- Every one of the 32 by 4 result blocks is some point's. -/
theorem index_onto : ∀ (q0 : Fin 32) (q1 : Fin 4), ∃ t : Fin cfg0.N, win0_2.index t = ![q0.val, q1.val] :=
  (by decide +kernel : ∀ (q0 : Fin 32) (q1 : Fin 4), ∃ t : Fin grid0.N, win0_2.index t = ![q0.val, q1.val])

/-- The x block at a point, at row p and column k, is x at row 512 · (the result's row block) + p, column k. -/
theorem x_block_apply (c : Dev nD) (t : Fin cfg0.N) (p : Fin 512) (k : Fin 4096) (i : S16384x4096.Idx)
    (hi0 : (i 0).val = win0_2.index t (0 : Fin 2) * 512 + p.val) (hi1 : (i 1).val = k.val) :
    (iblk m c 0 t : Vec Ideal S512x4096 .f32) (ix2 p k) = V m c main_arg0 i := by
  obtain ⟨e0, e1, -⟩ := index_maps t
  unfold iblk
  rw [View.read_apply]
  show V m c main_arg0 _ = V m c main_arg0 i
  refine congrArg (V m c main_arg0) (funext fun a => Fin.ext ?_)
  match a with
  | ⟨0, _⟩ => show win0_0.index t (0 : Fin 2) * 512 + 1 * p.val = (i 0).val; rw [hi0, e0]; omega
  | ⟨1, _⟩ => show win0_0.index t (1 : Fin 2) * 4096 + 1 * k.val = (i 1).val; rw [hi1, e1]; omega

/-- The W block at a point, at row q and column k, is W at row 1024 · (the result's column block) + q, column k. -/
theorem w_block_apply (c : Dev nD) (t : Fin cfg0.N) (q : Fin 1024) (k : Fin 4096) (i : S4096x4096.Idx)
    (hi0 : (i 0).val = win0_2.index t (1 : Fin 2) * 1024 + q.val) (hi1 : (i 1).val = k.val) :
    (iblk m c 1 t : Vec Ideal S1024x4096 .f32) (ix2 q k) = V m c main_arg1 i := by
  obtain ⟨-, -, e2, e3, -⟩ := index_maps t
  unfold iblk
  rw [View.read_apply]
  show V m c main_arg1 _ = V m c main_arg1 i
  refine congrArg (V m c main_arg1) (funext fun a => Fin.ext ?_)
  match a with
  | ⟨0, _⟩ => show win0_1.index t (0 : Fin 2) * 1024 + 1 * q.val = (i 0).val; rw [hi0, e2]; omega
  | ⟨1, _⟩ => show win0_1.index t (1 : Fin 2) * 4096 + 1 * k.val = (i 1).val; rw [hi1, e3]; omega

/-- What a point writes back is its block of x · Wᵀ. -/
theorem flushed_eq (c : Dev nD) (t : Fin cfg0.N) :
    (dats m 0 c).flushed 2 t
      = ((cfg0.win 2).blk t).view.read (Elt Ideal) (product (V m c main_arg0) (V m c main_arg1)) := by
  rw [flushed2]
  unfold out0_2
  rw [View.canon_unit_zero zero_offsets]
  simp only [View.ld_unit_zero (S := S512x4096) zero_offsets, View.ld_unit_zero (S := S1024x4096) zero_offsets]
  obtain ⟨-, -, -, -, e4, e5⟩ := index_maps t
  funext j
  show k0_pay1 (F := Ideal) (iblk m c 0 t) (iblk m c 1 t) j
    = product (V m c main_arg0) (V m c main_arg1) (((cfg0.win 2).blk t).view.emb j)
  obtain ⟨p, q, rfl⟩ : ∃ (p : Fin 512) (q : Fin 1024), j = ix2 p q := ⟨j 0, j 1, eq_ix2 j⟩
  have hp : p.val < 512 := p.isLt
  have hq : q.val < 1024 := q.isLt
  have hemb : ((cfg0.win 2).blk t).view.emb (ix2 p q)
      = ix2 (⟨win0_2.index t (0 : Fin 2) * 512 + p.val, by omega⟩ : Fin 16384)
          (⟨win0_2.index t (1 : Fin 2) * 1024 + q.val, by omega⟩ : Fin 4096) :=
    funext fun a => Fin.ext (by
      match a with
      | ⟨0, _⟩ => show win0_2.index t (0 : Fin 2) * 512 + 1 * p.val = win0_2.index t (0 : Fin 2) * 512 + p.val; omega
      | ⟨1, _⟩ => show win0_2.index t (1 : Fin 2) * 1024 + 1 * q.val = win0_2.index t (1 : Fin 2) * 1024 + q.val; omega)
  rw [hemb, product_apply, payload_apply]
  unfold rowDot
  refine Finset.sum_congr rfl fun k _ => ?_
  rw [x_block_apply m c t p k (ix2 (⟨win0_2.index t (0 : Fin 2) * 512 + p.val, by omega⟩ : Fin 16384) k) rfl rfl,
    w_block_apply m c t q k (ix2 (⟨win0_2.index t (1 : Fin 2) * 1024 + q.val, by omega⟩ : Fin 4096) k) rfl rfl]

/-- An index of the result is in a point's block when each coordinate is in the block's range on its axis. -/
theorem mem_block (t : Fin cfg0.N) (i : S16384x4096.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every entry of the result lies in the block of the point whose row block is row / 512 and whose column block
    is column / 1024. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The result array after the run is x · Wᵀ of the argument arrays. -/
theorem final (c : Dev nD) : (dats m 0 c).arrAt 2 cfg0.N
    = product (m ((c : Thread nD τ).loc main_arg0)) (m ((c : Thread nD τ).loc main_arg1)) :=
  (dats m 0 c).arrAt_eq_of_cover 2 (product (V m c main_arg0) (V m c main_arg1)) (fun t _ => flushed_eq m c t) covered

/-- Every weakly fair execution of the kernel ends with the result array at x · Wᵀ and the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.ReferenceProduct.lean ====
/-
  The reference computes x · Wᵀ.

  The reference splits W into its upper 2048 rows and its lower 2048 rows, transposes each half, multiplies x by
  each, and joins the two products side by side along the columns. Column c of the joined array comes from the
  first product when c < 2048 and from the second, at column c - 2048, otherwise; in both cases the entry in row r
  is the sum over k of x(r, k) times row c of W at k, because row c' of the lower half is row 2048 + c' of W.
-/
import proofs.«167219_g14525579395117_cont_week2b_1131_3_alg».proof.Proof.Gen.ReferenceIdeal.Read
import proofs.«167219_g14525579395117_cont_week2b_1131_3_alg».proof.Proof.RowsProduct
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.Read Cert.RowsProduct

/-- The first product, x times the transposed upper half of W, at row r and column c, is the inner product of
    row r of x with row c of W. -/
theorem upper_apply (x : FVec Ideal S16384x4096 .f32) (W : FVec Ideal S4096x4096 .f32) (r : Fin 16384) (c : Fin 2048) :
    val_main_v2 (F := Ideal) x W (ix2 r c) = rowDot x W r ⟨c.val, by have := c.isLt; omega⟩ := by
  rw [val_main_v2_apply]
  unfold rowDot
  refine Finset.sum_congr rfl fun k _ => ?_
  rw [val_main_v1_apply, val_main_v0_apply]
  have el : lidx_main_v2 (ix2 r c) k = ix2 r k :=
    funext fun a => Fin.ext (by match a with | ⟨0, _⟩ => rfl | ⟨1, _⟩ => rfl)
  have er : idx_main_v0 (idx_main_v1 (ridx_main_v2 (ix2 r c) k))
      = ix2 (⟨c.val, by have := c.isLt; omega⟩ : Fin 4096) k :=
    funext fun a => Fin.ext (by match a with | ⟨0, _⟩ => rfl | ⟨1, _⟩ => rfl)
  rw [el, er]

/-- The second product, x times the transposed lower half of W, at row r and column c, is the inner product of
    row r of x with row 2048 + c of W. -/
theorem lower_apply (x : FVec Ideal S16384x4096 .f32) (W : FVec Ideal S4096x4096 .f32) (r : Fin 16384) (c : Fin 2048) :
    val_main_v5 (F := Ideal) x W (ix2 r c) = rowDot x W r ⟨2048 + c.val, by have := c.isLt; omega⟩ := by
  rw [val_main_v5_apply]
  unfold rowDot
  refine Finset.sum_congr rfl fun k _ => ?_
  rw [val_main_v4_apply, val_main_v3_apply]
  have el : lidx_main_v5 (ix2 r c) k = ix2 r k :=
    funext fun a => Fin.ext (by match a with | ⟨0, _⟩ => rfl | ⟨1, _⟩ => rfl)
  have er : idx_main_v3 (idx_main_v4 (ridx_main_v5 (ix2 r c) k))
      = ix2 (⟨2048 + c.val, by have := c.isLt; omega⟩ : Fin 4096) k :=
    funext fun a => Fin.ext (by match a with | ⟨0, _⟩ => rfl | ⟨1, _⟩ => rfl)
  rw [el, er]

/-- The reference's result, the two products joined along the columns, is x · Wᵀ. -/
theorem result_eq (x : FVec Ideal S16384x4096 .f32) (W : FVec Ideal S4096x4096 .f32) :
    val_main_v6 (F := Ideal) x W = product x W := by
  funext j
  obtain ⟨r, c, rfl⟩ : ∃ (r : Fin 16384) (c : Fin 4096), j = ix2 r c := ⟨j 0, j 1, eq_ix2 j⟩
  rw [product_apply]
  unfold val_main_v6
  by_cases hc : c.val < 2048
  · refine (concatenate_pair_apply_left (s₁ := S16384x2048) (s₂ := S16384x2048) _ _ _ _ (ix2 r c) rfl (ix2 r (⟨c.val, hc⟩ : Fin 2048))
      (fun b => by match b with | ⟨0, _⟩ => rfl | ⟨1, _⟩ => rfl)).trans ?_
    rw [upper_apply]
  · have hc' : 2048 ≤ c.val := Nat.le_of_not_lt hc
    have hlt : c.val < 4096 := c.isLt
    refine (concatenate_pair_apply_right (s₁ := S16384x2048) (s₂ := S16384x2048) _ _ _ _ (ix2 r c) rfl rfl (ix2 r (⟨c.val - 2048, by omega⟩ : Fin 2048))
      (fun b hb => by match b with | ⟨0, _⟩ => rfl | ⟨1, _⟩ => exact absurd rfl hb)
      (by show c.val - 2048 + 2048 = c.val; omega)).trans ?_
    rw [lower_apply]
    exact congrArg (rowDot x W r) (Fin.ext (by show 2048 + (c.val - 2048) = c.val; omega))

end Cert.ReferenceIdeal.RefValue

end
-- ==== Proof.lean ====
/-
  The kernel and its reference compute the same matrix over the extended reals.

  The kernel is a tiled product of x (16384 by 4096) with the transpose of W (4096 by 4096): each grid point
  multiplies a block of 512 rows of x by the transpose of a block of 1024 rows of W, every row whole, and writes one
  512 by 1024 block of the result. The reference multiplies x by the transposed upper half of W and by the
  transposed lower half, and joins the two products along the columns. Either way the entry in row r and column c is
  the sum over k of x(r, k) · W(c, k); a change of float format is the identity on extended reals, and sums of
  extended reals may be taken in any order and grouping, so nothing more than this index bookkeeping is needed and
  the finiteness of the inputs is never used.

  The idealized kernel is the kernel's own text read over the extended reals (no operation was rewritten), so
  there is nothing to state about the idealization beyond that.
-/
import proofs.«167219_g14525579395117_cont_week2b_1131_3_alg».proof.Defs
import proofs.«167219_g14525579395117_cont_week2b_1131_3_alg».proof.Proof.Gen.Kernel
import proofs.«167219_g14525579395117_cont_week2b_1131_3_alg».proof.Proof.Gen.Kernel.Frame
import proofs.«167219_g14525579395117_cont_week2b_1131_3_alg».proof.Proof.Gen.KernelIdeal
import proofs.«167219_g14525579395117_cont_week2b_1131_3_alg».proof.Proof.Gen.KernelIdeal.Frame
import proofs.«167219_g14525579395117_cont_week2b_1131_3_alg».proof.Proof.Gen.KernelIdeal.Value
import proofs.«167219_g14525579395117_cont_week2b_1131_3_alg».proof.Proof.Gen.ReferenceIdeal
import proofs.«167219_g14525579395117_cont_week2b_1131_3_alg».proof.Proof.Gen.ReferenceIdeal.Run
import proofs.«167219_g14525579395117_cont_week2b_1131_3_alg».proof.Proof.Gen.ReferenceIdeal.Read
import proofs.«167219_g14525579395117_cont_week2b_1131_3_alg».proof.Proof.Gen.Pre_finite_inputs
import proofs.«167219_g14525579395117_cont_week2b_1131_3_alg».proof.Proof.KernelProduct
import proofs.«167219_g14525579395117_cont_week2b_1131_3_alg».proof.Proof.ReferenceProduct
import Idealize.ShloMosaic.Adequacy
import Idealize.ShloMosaic.Init

noncomputable section

namespace Cert.Proof

open Idealize.ShloMosaic Idealize.SL.Sem

/-- The kernel as printed runs to the end without a fault and leaves x and W as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs to the end and leaves x and W as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- From memories that agree on x and W, the kernel's result array and the reference's both end at x · Wᵀ. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
